-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1024 .f32) (main_arg12 : FVec F S1024x1024 .f32) (main_arg13 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_v63 main_v67

def fn_part2 {F : FTy → Type} [FloatOps F] (main_arg7 : FVec F S8192x1024 .f32) (main_arg8 : FVec F S8192x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_v33 : IVec S_ 1) : IVec S_ 1 :=
  let main_v34 : FVec F S8192x1024 .f32 := Host.absf main_arg7
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  let main_v39 : FVec F S8192x1024 .f32 := Host.absf main_arg8
  let main_cst_14 : FVec F S_ .f32 := constant S_ .f32 0x7F800000#32
  let main_v40 : FVec F S8192x1024 .f32 := broadcastInDim S8192x1024 ![] bcast_S_S8192x1024 main_cst_14
  let main_v41 : IVec S8192x1024 1 := cmpf .olt main_v39 main_v40
  let main_c_15 : IVec S_ 1 := constantI S_ 1 1#1
  let main_v42 : IVec S_ 1 := (fun x v => Host.reduce IntOp.andi x v reducesTo_S8192x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S8192x1024 .f32) (main_arg5 : FVec F S8192x1024 .f32) (main_arg6 : FVec F S8192x1024 .f32) (main_arg7 : FVec F S8192x1024 .f32) (main_arg8 : FVec F S8192x1024 .f32) (main_arg9 : FVec F S1024x1024 .f32) (main_arg10 : FVec F S1024x1024 .f32) (main_arg11 : FVec F S1024x1024 .f32) (main_arg12 : FVec F S1024x1024 .f32) (main_arg13 : FVec F S1024x1024 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S8192x1024 .f32) (main_arg7 : FVec F S8192x1024 .f32) (main_arg8 : FVec F S8192x1024 .f32) (main_arg9 : FVec F S1024x1024 .f32) (main_arg10 : FVec F S1024x1024 .f32) (main_arg11 : FVec F S1024x1024 .f32) (main_arg12 : FVec F S1024x1024 .f32) (main_arg13 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x1024 : Shape := ⟨2, ![8192, 1024]⟩
abbrev S1024x1024 : Shape := ⟨2, ![1024, 1024]⟩
abbrev S4x8192x1024 : Shape := ⟨3, ![4, 8192, 1024]⟩
abbrev S256x1024 : Shape := ⟨2, ![256, 1024]⟩
abbrev S4x256x1024 : Shape := ⟨3, ![4, 256, 1024]⟩
abbrev S1x256x1024 : Shape := ⟨3, ![1, 256, 1024]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S4x8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S4x256x1024, .f32⟩
  | .local _ .vmem, ⟨22, _⟩ => ⟨S4x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  inb_S4x256x1024_S1x256x1024_0_0_0 : ∀ a, (![0, 0, 0] : Fin 3 → Nat) a + S1x256x1024.size a ≤ S4x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S4x256x1024_S1x256x1024_1_0_0 : ∀ a, (![1, 0, 0] : Fin 3 → Nat) a + S1x256x1024.size a ≤ S4x256x1024.size a
  inb_S4x256x1024_S1x256x1024_2_0_0 : ∀ a, (![2, 0, 0] : Fin 3 → Nat) a + S1x256x1024.size a ≤ S4x256x1024.size a
  inb_S4x256x1024_S1x256x1024_3_0_0 : ∀ a, (![3, 0, 0] : Fin 3 → Nat) a + S1x256x1024.size a ≤ S4x256x1024.size a
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S8192x1024.size a
  hwx0_3 : ∀ i : grid0.Coords, EltTy.bits .f32 = 32 ∨ (Rect.block (s := S8192x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S8192x1024.size a
  hwx0_4 : ∀ i : grid0.Coords, EltTy.bits .f32 = 32 ∨ (Rect.block (s := S8192x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4x256x1024.size a ≤ S4x8192x1024.size a
  hwx0_13 : ∀ i : grid0.Coords, EltTy.bits .f32 = 32 ∨ (Rect.block (s := S4x8192x1024) S4x256x1024.size (cc0_transform_13 i) (hinb0_13 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S4x256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S1x8192x1024 : Shape := ⟨3, ![1, 8192, 1024]⟩
abbrev S4x8192x1024 : Shape := ⟨3, ![4, 8192, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S8192x1024, .f32⟩
  | .hbm, ⟨16, _⟩ => ⟨S1024x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .i1⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .i1⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .i1⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .i1⟩
  | .hbm, ⟨61, _⟩ => ⟨S8192x1024, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S4x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  concatenates_S1x8192x1024_S1x8192x1024_S1x8192x1024_S1x8192x1024_S4x8192x1024_d0 : Shape.Concatenates [S1x8192x1024, S1x8192x1024, S1x8192x1024, S1x8192x1024] S4x8192x1024 0
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.Spec.lean ====
/-
  One step of a layer of leaky integrate-and-fire neurons, as a function of whole arrays.

  Four groups of neurons (sensory, two hidden, motor), `R` batch rows and 1024 neurons per group. A neuron with
  membrane voltage `v` and input current `I` fires when the relaxed voltage `v + (dt/τ)·(I − v)` reaches the threshold 1;
  the result holds 1 where it fires and 0 where it does not. The sensory current is the external input; a hidden or
  motor current is a sum of projections `x · Wᵀ` of the previous step's spikes `x` through weight matrices `W`
  (row `n` of `W` holds the weights into neuron `n`):

      I_s  = ext
      I_h1 = s·W1ᵀ + h2·W3ᵀ + h1·W5ᵀ
      I_h2 = h1·W2ᵀ
      I_m  = h2·W4ᵀ

  The four planes of spikes are stacked along a leading axis of extent 4. Everything is stated for any number of rows
  `R`, so that the same definition reads a whole array (8192 rows) and a block of 256 of its rows; `layer_rows` says
  that the layer of a band of rows of the inputs is that band of the layer of the inputs (each output row depends on
  the same row of each row-indexed input and on all of each weight matrix).
-/
import Idealize.ShloMosaic.PureOps.Ideal
import Idealize.ShloMosaic.Lib.ValueIdx

noncomputable section

open scoped BigOperators

namespace Cert.Lif

open Idealize.ShloMosaic

/-- Row-indexed arrays: `R` rows of 1024 neurons. -/
abbrev Rows (R : Nat) : Shape := ⟨2, ![R, 1024]⟩
/-- A weight matrix: entry (n, k) is the weight from input neuron k into neuron n. -/
abbrev Wts : Shape := ⟨2, ![1024, 1024]⟩
/-- The four planes of spikes. -/
abbrev Planes (R : Nat) : Shape := ⟨3, ![4, R, 1024]⟩

/-- The spike indicator: 1 when `v + (dt/τ)·(I − v) ≥ 1`, else 0, with `dt/τ` the single-precision value nearest 1/20
    (the same word in both programs, so it is never evaluated). -/
def fire (v I : EReal) : EReal :=
  FloatOps.uitofp (F := Ideal) .f32
    (FloatOps.cmpf (F := Ideal) (φ := .f32) .oge (v + Ideal.ofBits .f32 0x3D4CCCCD#32 * (I - v)) (Ideal.ofBits .f32 0x3F800000#32))

/-- Entry (row of `j`, k) of a row-indexed array. -/
abbrev rowAt {R : Nat} (j : (Rows R).Idx) (k : Fin 1024) : (Rows R).Idx := fun a => match a with
  | ⟨0, _⟩ => ⟨(j 0).val, (j 0).isLt⟩
  | ⟨1, _⟩ => ⟨k.val, k.isLt⟩

/-- Entry (column of `j`, k) of a weight matrix: the weight from input neuron k into the neuron of `j`. -/
abbrev colAt {R : Nat} (j : (Rows R).Idx) (k : Fin 1024) : Wts.Idx := fun a => match a with
  | ⟨0, _⟩ => ⟨(j 1).val, (j 1).isLt⟩
  | ⟨1, _⟩ => ⟨k.val, k.isLt⟩

/-- The projection `x · Wᵀ` at (b, n): the sum over input neurons k of `x[b, k] · W[n, k]`. -/
def proj {R : Nat} (x : (Rows R).Idx → EReal) (w : Wts.Idx → EReal) (j : (Rows R).Idx) : EReal :=
  ∑ k : Fin 1024, x (rowAt j k) * w (colAt j k)

/-- The sensory plane. -/
def sensory {R : Nat} (ext vs : (Rows R).Idx → EReal) : (Rows R).Idx → EReal := fun j => fire (vs j) (ext j)
/-- The first hidden plane. -/
def hidden1 {R : Nat} (s h1 h2 vh1 : (Rows R).Idx → EReal) (w1 w3 w5 : Wts.Idx → EReal) : (Rows R).Idx → EReal :=
  fun j => fire (vh1 j) (proj s w1 j + proj h2 w3 j + proj h1 w5 j)
/-- The second hidden plane. -/
def hidden2 {R : Nat} (h1 vh2 : (Rows R).Idx → EReal) (w2 : Wts.Idx → EReal) : (Rows R).Idx → EReal :=
  fun j => fire (vh2 j) (proj h1 w2 j)
/-- The motor plane. -/
def motor {R : Nat} (h2 vm : (Rows R).Idx → EReal) (w4 : Wts.Idx → EReal) : (Rows R).Idx → EReal :=
  fun j => fire (vm j) (proj h2 w4 j)

/-- The (row, neuron) coordinates of an index of the stacked planes. -/
abbrev within {R : Nat} (i : (Planes R).Idx) : (Rows R).Idx := fun a => match a with
  | ⟨0, _⟩ => ⟨(i 1).val, (i 1).isLt⟩
  | ⟨1, _⟩ => ⟨(i 2).val, (i 2).isLt⟩

/-- Four planes stacked along a new leading axis. -/
def stack {R : Nat} (p0 p1 p2 p3 : (Rows R).Idx → EReal) : (Planes R).Idx → EReal := fun i =>
  if (i 0).val = 0 then p0 (within i) else if (i 0).val = 1 then p1 (within i)
  else if (i 0).val = 2 then p2 (within i) else p3 (within i)

theorem stack_zero {R : Nat} (p0 p1 p2 p3 : (Rows R).Idx → EReal) (i : (Planes R).Idx) (h : (i 0).val = 0) :
    stack p0 p1 p2 p3 i = p0 (within i) := by
  unfold stack; rw [if_pos h]

theorem stack_one {R : Nat} (p0 p1 p2 p3 : (Rows R).Idx → EReal) (i : (Planes R).Idx) (h : (i 0).val = 1) :
    stack p0 p1 p2 p3 i = p1 (within i) := by
  unfold stack; rw [if_neg (by omega), if_pos h]

theorem stack_two {R : Nat} (p0 p1 p2 p3 : (Rows R).Idx → EReal) (i : (Planes R).Idx) (h : (i 0).val = 2) :
    stack p0 p1 p2 p3 i = p2 (within i) := by
  unfold stack; rw [if_neg (by omega), if_neg (by omega), if_pos h]

theorem stack_three {R : Nat} (p0 p1 p2 p3 : (Rows R).Idx → EReal) (i : (Planes R).Idx) (h : (i 0).val = 3) :
    stack p0 p1 p2 p3 i = p3 (within i) := by
  unfold stack; rw [if_neg (by omega), if_neg (by omega), if_neg (by omega)]

/-- The layer's step: the four planes of spikes, from the external input, the previous spikes, the voltages and the
    five weight matrices. -/
def layer {R : Nat} (ext s h1 h2 vs vh1 vh2 vm : (Rows R).Idx → EReal) (w1 w2 w3 w4 w5 : Wts.Idx → EReal) :
    (Planes R).Idx → EReal :=
  stack (sensory ext vs) (hidden1 s h1 h2 vh1 w1 w3 w5) (hidden2 h1 vh2 w2) (motor h2 vm w4)

/-! ## A band of rows -/

/-- Row `y` of the band of 256 rows that starts at row `256 q`, as a row of the whole array. -/
abbrev bandRow (q : Nat) (hq : q < 32) (y : (Rows 256).Idx) : (Rows 8192).Idx := fun a => match a with
  | ⟨0, _⟩ => ⟨q * 256 + (y 0).val, by have h : (y 0).val < 256 := (y 0).isLt; show q * 256 + (y 0).val < 8192; omega⟩
  | ⟨1, _⟩ => ⟨(y 1).val, (y 1).isLt⟩

/-- The same for an index of the stacked planes. -/
abbrev bandPlane (q : Nat) (hq : q < 32) (y : (Planes 256).Idx) : (Planes 8192).Idx := fun a => match a with
  | ⟨0, _⟩ => ⟨(y 0).val, (y 0).isLt⟩
  | ⟨1, _⟩ => ⟨q * 256 + (y 1).val, by have h : (y 1).val < 256 := (y 1).isLt; show q * 256 + (y 1).val < 8192; omega⟩
  | ⟨2, _⟩ => ⟨(y 2).val, (y 2).isLt⟩

/-- A projection of a band of rows is that band of the projection: row b of `x · Wᵀ` reads row b of `x` only. -/
theorem proj_rows (q : Nat) (hq : q < 32) (x : (Rows 8192).Idx → EReal) (w : Wts.Idx → EReal) (j : (Rows 256).Idx) :
    proj (fun y => x (bandRow q hq y)) w j = proj x w (bandRow q hq j) := by
  unfold proj
  refine Finset.sum_congr rfl fun k _ => ?_
  have er : bandRow q hq (rowAt j k) = rowAt (bandRow q hq j) k :=
    funext fun a => match a with | ⟨0, _⟩ => rfl | ⟨1, _⟩ => rfl
  have ec : colAt j k = colAt (bandRow q hq j) k :=
    funext fun a => match a with | ⟨0, _⟩ => rfl | ⟨1, _⟩ => rfl
  show x (bandRow q hq (rowAt j k)) * w (colAt j k) = _
  rw [er, ec]

/-- The layer of a band of rows of the inputs is that band of the layer of the inputs. -/
theorem layer_rows (q : Nat) (hq : q < 32) (ext s h1 h2 vs vh1 vh2 vm : (Rows 8192).Idx → EReal)
    (w1 w2 w3 w4 w5 : Wts.Idx → EReal) (y : (Planes 256).Idx) :
    layer (fun y => ext (bandRow q hq y)) (fun y => s (bandRow q hq y)) (fun y => h1 (bandRow q hq y))
        (fun y => h2 (bandRow q hq y)) (fun y => vs (bandRow q hq y)) (fun y => vh1 (bandRow q hq y))
        (fun y => vh2 (bandRow q hq y)) (fun y => vm (bandRow q hq y)) w1 w2 w3 w4 w5 y
      = layer ext s h1 h2 vs vh1 vh2 vm w1 w2 w3 w4 w5 (bandPlane q hq y) := by
  have e : within (bandPlane q hq y) = bandRow q hq (within y) :=
    funext fun a => match a with | ⟨0, _⟩ => rfl | ⟨1, _⟩ => rfl
  unfold layer stack
  rw [e]
  show (if (y 0).val = 0 then _ else if (y 0).val = 1 then _ else if (y 0).val = 2 then _ else _) = _
  unfold sensory hidden1 hidden2 motor
  simp only [proj_rows]

end Cert.Lif

end
-- ==== Proof.Payload.lean ====
/-
  The kernel body's arithmetic on one block of 256 rows, read at an index.

  The body loads a block of 256 rows of each row-indexed input and all of each weight matrix, and stores four planes.
  Here each stored plane, as a pure function of the loaded blocks, is shown to be the corresponding plane of the layer
  of those blocks (`Cert.Lif`), entry by entry:
  * a matrix product contracting the second axis of both operands, into a zero accumulator, is the projection
    `x · Wᵀ` — the sum over k of `x[b, k] · W[n, k]` (a change of float format is the identity on the extended reals);
  * a comparison bit widened to 32 bits and read as a signed integer is the bit read as an unsigned integer: 0 or 1;
  * a plane [256, 1024] given a leading unit axis reads at (0, b, n) the plane at (b, n).
-/
import proofs.«147066_j36344013258758_2_alg».proof.Proof.Gen.KernelIdeal.Skeleton
import proofs.«147066_j36344013258758_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Cert.Lif

/-- A bit widened to 32 bits with zeros and read as a signed integer is the bit read unsigned. -/
theorem sitofp_widened_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : Int) := by revert b; decide
  rw [h, Int.cast_natCast]

/-! ## The matrix product at an index -/

theorem lhs_row (j : S256x1024.Idx) (q : dot_S256x1024_S1024x1024_S256x1024_1_1_0_0_n_n.contr.Idx) :
    (dot_S256x1024_S1024x1024_S256x1024_1_1_0_0_n_n.lhsIdx j q 0).val = (j 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl

theorem lhs_contr (j : S256x1024.Idx) (q : dot_S256x1024_S1024x1024_S256x1024_1_1_0_0_n_n.contr.Idx) :
    (dot_S256x1024_S1024x1024_S256x1024_1_1_0_0_n_n.lhsIdx j q 1).val = (q ⟨0, by decide⟩).val :=
  dot_S256x1024_S1024x1024_S256x1024_1_1_0_0_n_n.lhsIdx_val_of_single rfl j q

theorem rhs_row (j : S256x1024.Idx) (q : dot_S256x1024_S1024x1024_S256x1024_1_1_0_0_n_n.contr.Idx) :
    (dot_S256x1024_S1024x1024_S256x1024_1_1_0_0_n_n.rhsIdx j q 0).val = (j 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl

theorem rhs_contr (j : S256x1024.Idx) (q : dot_S256x1024_S1024x1024_S256x1024_1_1_0_0_n_n.contr.Idx) :
    (dot_S256x1024_S1024x1024_S256x1024_1_1_0_0_n_n.rhsIdx j q 1).val = (q ⟨0, by decide⟩).val :=
  dot_S256x1024_S1024x1024_S256x1024_1_1_0_0_n_n.rhsIdx_val_of_single rfl j q

/-- The product of a block `x` [256, 1024] with a matrix `w` [1024, 1024] over the second axis of both, into zeros:
    entry (b, n) is the sum over k of `x[b, k] · w[n, k]`. -/
theorem matmul_proj (x : FVec Ideal S256x1024 .bf16) (w : FVec Ideal S1024x1024 .bf16) (j : S256x1024.Idx) :
    matmul dot_S256x1024_S1024x1024_S256x1024_1_1_0_0_n_n none x w (constant (F := Ideal) S256x1024 .f32 0x00000000#32) j = proj x w j := by
  refine (Ideal.matmul_constant_zero_apply dot_S256x1024_S1024x1024_S256x1024_1_1_0_0_n_n none x w j).trans ?_
  rw [← Equiv.sum_comp (ValueIdx.contrEquiv1 dot_S256x1024_S1024x1024_S256x1024_1_1_0_0_n_n 1024 rfl rfl).symm]
  unfold proj
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx j ((ValueIdx.contrEquiv1 dot_S256x1024_S1024x1024_S256x1024_1_1_0_0_n_n 1024 rfl rfl).symm k) = rowAt j k := funext fun a => Fin.ext (by
    match a with
    | ⟨0, _⟩ => exact lhs_row _ _
    | ⟨1, _⟩ => exact (lhs_contr _ _).trans hk)
  have er : dot_S256x1024_S1024x1024_S256x1024_1_1_0_0_n_n.rhsIdx j ((ValueIdx.contrEquiv1 dot_S256x1024_S1024x1024_S256x1024_1_1_0_0_n_n 1024 rfl rfl).symm k) = colAt j k := funext fun a => Fin.ext (by
    match a with
    | ⟨0, _⟩ => exact rhs_row _ _
    | ⟨1, _⟩ => exact (rhs_contr _ _).trans hk)
  rw [el, er]

/-- The same with the operands as the body prepares them: the rows narrowed to bf16, the weights recast to their own
    shape — both the identity. -/
theorem product_apply (x : FVec Ideal S256x1024 .f32) (w : FVec Ideal S1024x1024 .bf16) (j : S256x1024.Idx) :
    matmul dot_S256x1024_S1024x1024_S256x1024_1_1_0_0_n_n none (truncf .bf16 x bitsLt_bf16_f32) (shapeCast S1024x1024 w shapeCasts_S1024x1024_S1024x1024)
      (constant (F := Ideal) S256x1024 .f32 0x00000000#32) j = proj x w j := by
  rw [shapeCast_self]
  exact matmul_proj _ w j

/-! ## The three currents that are projections -/

theorem current_h1 (v1 v3 v5 : FVec Ideal S256x1024 .f32) (v11 v15 v19 : FVec Ideal S1024x1024 .bf16) (j : S256x1024.Idx) :
    k0_pay4 (F := Ideal) v1 v3 v5 v11 v15 v19 j = proj v1 v11 j + proj v5 v15 j + proj v3 v19 j :=
  congrArg₂ (· + ·) (congrArg₂ (· + ·) (product_apply v1 v11 j) (product_apply v5 v15 j)) (product_apply v3 v19 j)

theorem current_h2 (v3 : FVec Ideal S256x1024 .f32) (v13 : FVec Ideal S1024x1024 .bf16) (j : S256x1024.Idx) :
    k0_pay5 (F := Ideal) v3 v13 j = proj v3 v13 j :=
  product_apply v3 v13 j

theorem current_m (v5 : FVec Ideal S256x1024 .f32) (v17 : FVec Ideal S1024x1024 .bf16) (j : S256x1024.Idx) :
    k0_pay6 (F := Ideal) v5 v17 j = proj v5 v17 j :=
  product_apply v5 v17 j

/-! ## The four stored planes -/

/-- The sensory plane's store. -/
theorem stored_sensory (v0 v7 : FVec Ideal S256x1024 .f32) (x : S1x256x1024.Idx) :
    k0_pay7 (F := Ideal) v0 v7 x = sensory v0 v7 (fun a => x a.succ) := by
  unfold k0_pay7
  refine (shapeCast_addUnit_apply _ _ _ x).trans ?_
  exact sitofp_widened_bit _

/-- The first hidden plane's store. -/
theorem stored_hidden1 (v1 v3 v5 v8 : FVec Ideal S256x1024 .f32) (v11 v15 v19 : FVec Ideal S1024x1024 .bf16) (x : S1x256x1024.Idx) :
    k0_pay8 (F := Ideal) v8 (k0_pay4 v1 v3 v5 v11 v15 v19) x = hidden1 v1 v3 v5 v8 v11 v15 v19 (fun a => x a.succ) := by
  unfold k0_pay8
  refine (shapeCast_addUnit_apply _ _ _ x).trans ?_
  refine (sitofp_widened_bit _).trans ?_
  exact congrArg (fire (v8 fun a => x a.succ)) (current_h1 v1 v3 v5 v11 v15 v19 _)

/-- The second hidden plane's store. -/
theorem stored_hidden2 (v3 v9 : FVec Ideal S256x1024 .f32) (v13 : FVec Ideal S1024x1024 .bf16) (x : S1x256x1024.Idx) :
    k0_pay9 (F := Ideal) v9 (k0_pay5 v3 v13) x = hidden2 v3 v9 v13 (fun a => x a.succ) := by
  unfold k0_pay9
  refine (shapeCast_addUnit_apply _ _ _ x).trans ?_
  refine (sitofp_widened_bit _).trans ?_
  exact congrArg (fire (v9 fun a => x a.succ)) (current_h2 v3 v13 _)

/-- The motor plane's store. -/
theorem stored_motor (v5 v10 : FVec Ideal S256x1024 .f32) (v17 : FVec Ideal S1024x1024 .bf16) (x : S1x256x1024.Idx) :
    k0_pay1 (F := Ideal) (k0_pay10 (F := Ideal) v10 (k0_pay6 (F := Ideal) v5 v17)) x = motor v5 v10 v17 (fun a => x a.succ) := by
  unfold k0_pay1
  refine (shapeCast_addUnit_apply _ _ _ x).trans ?_
  refine (sitofp_widened_bit _).trans ?_
  exact congrArg (fire (v10 fun a => x a.succ)) (current_m v5 v17 _)

end Cert.KernelIdeal.Body

end
-- ==== Proof.Blocks.lean ====
/-
  The idealized kernel's result array is the layer's step (`Cert.Lif.layer`) of its arguments.

  The grid has 32 points; point t works on rows 256 t … 256 t + 255. There it loads that band of rows of the eight
  row-indexed inputs and all of each weight matrix (narrowed to bf16 before the launch: the identity on the extended
  reals), and writes back the band of the four result planes.
  1. What the body stores — four planes, one per rectangle [g, 0:256, 0:1024] of the staging block — is the layer of
     the loaded blocks: each rectangle's stored value is its plane (`Cert.KernelIdeal.Body`), and the rectangles tile
     the block.
  2. The loaded blocks are the arguments read at rows 256 t + b, so by `Cert.Lif.layer_rows` the stored block is the
     band of the layer of the whole arguments: what point t writes back is block t of the layer.
  3. The 32 bands cover the array, so the array ends holding the layer of the arguments.
-/
import proofs.«147066_j36344013258758_2_alg».proof.Proof.Gen.KernelIdeal.Value
import proofs.«147066_j36344013258758_2_alg».proof.Proof.Payload
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem Cert.Lif
open Idealize.ShloMosaic.Pipeline (Dat)

/-! ## The stored block is the layer of the loaded blocks -/

theorem zeros2 : (![0, 0] : Fin 2 → Nat) = fun _ => 0 := funext fun a => by fin_cases a <;> rfl

/-- The (b, n) of an index (0, b, n) of a stored plane is the (b, n) of its place in the block, whichever plane. -/
theorem within_emb (g : Nat) (inb) (x : S1x256x1024.Idx) :
    within ((Rect.unit (s := S4x256x1024) ![g, 0, 0] S1x256x1024.size inb).emb x) = fun a : Fin 2 => x a.succ :=
  funext fun a => Fin.ext (by
    match a with
    | ⟨0, _⟩ => show 0 + 1 * (x 1).val = (x 1).val; omega
    | ⟨1, _⟩ => show 0 + 1 * (x 2).val = (x 2).val; omega)

/-- An index (0, b, n) of the plane stored at offset g sits on plane g of the block. -/
theorem plane_emb (g : Nat) (inb) (x : S1x256x1024.Idx) :
    (((Rect.unit (s := S4x256x1024) ![g, 0, 0] S1x256x1024.size inb).emb x) 0).val = g := by
  have h : (x 0).val < 1 := (x 0).isLt
  show g + 1 * (x 0).val = g
  omega

/-- What the body leaves in the output block, from the blocks it loaded: the layer of those blocks. -/
theorem block_eq_layer (x0 x1 x2 x3 x4 x5 x6 x7 : FVec Ideal S256x1024 .f32) (x8 x9 x10 x11 x12 : FVec Ideal S1024x1024 .bf16) :
    out0_13 (F := Ideal) x0 x1 x2 x3 x4 x5 x6 x7 x8 x9 x10 x11 x12 = layer x0 x1 x2 x3 x4 x5 x6 x7 x8 x9 x10 x11 x12 := by
  funext y
  unfold out0_13
  simp only [View.ld_unit_zero (S := S256x1024) zeros2, View.ld_unit_zero (S := S1024x1024) zeros2]
  refine View.canon_apply_of_pieces (Val := Elt Ideal) (layer x0 x1 x2 x3 x4 x5 x6 x7 x8 x9 x10 x11 x12) _ ?_ y (cover0_13 _ _ _ _ y)
  intro p hp
  simp only [List.mem_cons, List.not_mem_nil, or_false] at hp
  rcases hp with rfl | rfl | rfl | rfl
  · intro x
    refine (Body.stored_motor x3 x7 x11 x).trans ?_
    unfold layer
    rw [stack_three _ _ _ _ _ (plane_emb 3 _ x), within_emb]
  · intro x
    refine (Body.stored_hidden2 x2 x6 x9 x).trans ?_
    unfold layer
    rw [stack_two _ _ _ _ _ (plane_emb 2 _ x), within_emb]
  · intro x
    refine (Body.stored_hidden1 x1 x2 x3 x5 x8 x10 x12 x).trans ?_
    unfold layer
    rw [stack_one _ _ _ _ _ (plane_emb 1 _ x), within_emb]
  · intro x
    refine (Body.stored_sensory x0 x4 x).trans ?_
    unfold layer
    rw [stack_zero _ _ _ _ _ (plane_emb 0 _ x), within_emb]

/-! ## The blocks a point loads and the block it writes, as bands of the arrays -/

variable (m : (ℓ : Loc nD τ sig) → Buf (Elt Ideal) ℓ) (ρ : Dev nD → PrngReg)

/-- The index maps, decided over the 32 points: the output block of point t is planes 0–3, row band `index t 1 < 32`, all
    1024 neurons; -/
theorem out_facts : ∀ t : Fin cfg0.N, win0_13.index t (0 : Fin 3) = 0 ∧ win0_13.index t (1 : Fin 3) < 32
    ∧ win0_13.index t (2 : Fin 3) = 0 :=
  (by decide +kernel : ∀ t : Fin grid0.N, _)

/-- each row-indexed input's block is the same row band, all 1024 neurons; -/
theorem rows_facts : ∀ t : Fin cfg0.N, win0_0.index t (0 : Fin 2) = win0_13.index t (1 : Fin 3) ∧ win0_0.index t (1 : Fin 2) = 0
    ∧ win0_1.index t (0 : Fin 2) = win0_13.index t (1 : Fin 3) ∧ win0_1.index t (1 : Fin 2) = 0
    ∧ win0_2.index t (0 : Fin 2) = win0_13.index t (1 : Fin 3) ∧ win0_2.index t (1 : Fin 2) = 0
    ∧ win0_3.index t (0 : Fin 2) = win0_13.index t (1 : Fin 3) ∧ win0_3.index t (1 : Fin 2) = 0
    ∧ win0_4.index t (0 : Fin 2) = win0_13.index t (1 : Fin 3) ∧ win0_4.index t (1 : Fin 2) = 0
    ∧ win0_5.index t (0 : Fin 2) = win0_13.index t (1 : Fin 3) ∧ win0_5.index t (1 : Fin 2) = 0
    ∧ win0_6.index t (0 : Fin 2) = win0_13.index t (1 : Fin 3) ∧ win0_6.index t (1 : Fin 2) = 0
    ∧ win0_7.index t (0 : Fin 2) = win0_13.index t (1 : Fin 3) ∧ win0_7.index t (1 : Fin 2) = 0 :=
  (by decide +kernel : ∀ t : Fin grid0.N, _)

/-- each weight matrix's block is the whole matrix; -/
theorem wts_facts : ∀ t : Fin cfg0.N, win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- and every row band is some point's. -/
theorem band_onto : ∀ q : Fin 32, ∃ t : Fin cfg0.N, win0_13.index t = ![0, q.val, 0] :=
  (by decide +kernel : ∀ q : Fin 32, ∃ t : Fin grid0.N, win0_13.index t = ![0, q.val, 0])

theorem rows0 (c : Dev nD) (t : Fin cfg0.N) (hq : win0_13.index t (1 : Fin 3) < 32) :
    iblk (F := Ideal) m c 0 t = fun y : S256x1024.Idx => (m ((c : Thread nD τ).loc main_arg0) : S8192x1024.Idx → EReal) (bandRow (win0_13.index t (1 : Fin 3)) hq y) := by
  have f := rows_facts t
  funext y
  show V m c main_arg0 (((cfg0.win 0).blk t).view.emb y) = _
  rw [V_main_arg0]
  refine congrArg _ (funext fun a => Fin.ext ?_)
  match a with
  | ⟨0, _⟩ => show win0_0.index t (0 : Fin 2) * 256 + 1 * (y 0).val = win0_13.index t (1 : Fin 3) * 256 + (y 0).val; omega
  | ⟨1, _⟩ => show win0_0.index t (1 : Fin 2) * 1024 + 1 * (y 1).val = (y 1).val; omega

theorem rows1 (c : Dev nD) (t : Fin cfg0.N) (hq : win0_13.index t (1 : Fin 3) < 32) :
    iblk (F := Ideal) m c 1 t = fun y : S256x1024.Idx => (m ((c : Thread nD τ).loc main_arg1) : S8192x1024.Idx → EReal) (bandRow (win0_13.index t (1 : Fin 3)) hq y) := by
  have f := rows_facts t
  funext y
  show V m c main_arg1 (((cfg0.win 1).blk t).view.emb y) = _
  rw [V_main_arg1]
  refine congrArg _ (funext fun a => Fin.ext ?_)
  match a with
  | ⟨0, _⟩ => show win0_1.index t (0 : Fin 2) * 256 + 1 * (y 0).val = win0_13.index t (1 : Fin 3) * 256 + (y 0).val; omega
  | ⟨1, _⟩ => show win0_1.index t (1 : Fin 2) * 1024 + 1 * (y 1).val = (y 1).val; omega

theorem rows2 (c : Dev nD) (t : Fin cfg0.N) (hq : win0_13.index t (1 : Fin 3) < 32) :
    iblk (F := Ideal) m c 2 t = fun y : S256x1024.Idx => (m ((c : Thread nD τ).loc main_arg2) : S8192x1024.Idx → EReal) (bandRow (win0_13.index t (1 : Fin 3)) hq y) := by
  have f := rows_facts t
  funext y
  show V m c main_arg2 (((cfg0.win 2).blk t).view.emb y) = _
  rw [V_main_arg2]
  refine congrArg _ (funext fun a => Fin.ext ?_)
  match a with
  | ⟨0, _⟩ => show win0_2.index t (0 : Fin 2) * 256 + 1 * (y 0).val = win0_13.index t (1 : Fin 3) * 256 + (y 0).val; omega
  | ⟨1, _⟩ => show win0_2.index t (1 : Fin 2) * 1024 + 1 * (y 1).val = (y 1).val; omega

theorem rows3 (c : Dev nD) (t : Fin cfg0.N) (hq : win0_13.index t (1 : Fin 3) < 32) :
    iblk (F := Ideal) m c 3 t = fun y : S256x1024.Idx => (m ((c : Thread nD τ).loc main_arg3) : S8192x1024.Idx → EReal) (bandRow (win0_13.index t (1 : Fin 3)) hq y) := by
  have f := rows_facts t
  funext y
  show V m c main_arg3 (((cfg0.win 3).blk t).view.emb y) = _
  rw [V_main_arg3]
  refine congrArg _ (funext fun a => Fin.ext ?_)
  match a with
  | ⟨0, _⟩ => show win0_3.index t (0 : Fin 2) * 256 + 1 * (y 0).val = win0_13.index t (1 : Fin 3) * 256 + (y 0).val; omega
  | ⟨1, _⟩ => show win0_3.index t (1 : Fin 2) * 1024 + 1 * (y 1).val = (y 1).val; omega

theorem rows4 (c : Dev nD) (t : Fin cfg0.N) (hq : win0_13.index t (1 : Fin 3) < 32) :
    iblk (F := Ideal) m c 4 t = fun y : S256x1024.Idx => (m ((c : Thread nD τ).loc main_arg5) : S8192x1024.Idx → EReal) (bandRow (win0_13.index t (1 : Fin 3)) hq y) := by
  have f := rows_facts t
  funext y
  show V m c main_arg5 (((cfg0.win 4).blk t).view.emb y) = _
  rw [V_main_arg5]
  refine congrArg _ (funext fun a => Fin.ext ?_)
  match a with
  | ⟨0, _⟩ => show win0_4.index t (0 : Fin 2) * 256 + 1 * (y 0).val = win0_13.index t (1 : Fin 3) * 256 + (y 0).val; omega
  | ⟨1, _⟩ => show win0_4.index t (1 : Fin 2) * 1024 + 1 * (y 1).val = (y 1).val; omega

theorem rows5 (c : Dev nD) (t : Fin cfg0.N) (hq : win0_13.index t (1 : Fin 3) < 32) :
    iblk (F := Ideal) m c 5 t = fun y : S256x1024.Idx => (m ((c : Thread nD τ).loc main_arg6) : S8192x1024.Idx → EReal) (bandRow (win0_13.index t (1 : Fin 3)) hq y) := by
  have f := rows_facts t
  funext y
  show V m c main_arg6 (((cfg0.win 5).blk t).view.emb y) = _
  rw [V_main_arg6]
  refine congrArg _ (funext fun a => Fin.ext ?_)
  match a with
  | ⟨0, _⟩ => show win0_5.index t (0 : Fin 2) * 256 + 1 * (y 0).val = win0_13.index t (1 : Fin 3) * 256 + (y 0).val; omega
  | ⟨1, _⟩ => show win0_5.index t (1 : Fin 2) * 1024 + 1 * (y 1).val = (y 1).val; omega

theorem rows6 (c : Dev nD) (t : Fin cfg0.N) (hq : win0_13.index t (1 : Fin 3) < 32) :
    iblk (F := Ideal) m c 6 t = fun y : S256x1024.Idx => (m ((c : Thread nD τ).loc main_arg7) : S8192x1024.Idx → EReal) (bandRow (win0_13.index t (1 : Fin 3)) hq y) := by
  have f := rows_facts t
  funext y
  show V m c main_arg7 (((cfg0.win 6).blk t).view.emb y) = _
  rw [V_main_arg7]
  refine congrArg _ (funext fun a => Fin.ext ?_)
  match a with
  | ⟨0, _⟩ => show win0_6.index t (0 : Fin 2) * 256 + 1 * (y 0).val = win0_13.index t (1 : Fin 3) * 256 + (y 0).val; omega
  | ⟨1, _⟩ => show win0_6.index t (1 : Fin 2) * 1024 + 1 * (y 1).val = (y 1).val; omega

theorem rows7 (c : Dev nD) (t : Fin cfg0.N) (hq : win0_13.index t (1 : Fin 3) < 32) :
    iblk (F := Ideal) m c 7 t = fun y : S256x1024.Idx => (m ((c : Thread nD τ).loc main_arg8) : S8192x1024.Idx → EReal) (bandRow (win0_13.index t (1 : Fin 3)) hq y) := by
  have f := rows_facts t
  funext y
  show V m c main_arg8 (((cfg0.win 7).blk t).view.emb y) = _
  rw [V_main_arg8]
  refine congrArg _ (funext fun a => Fin.ext ?_)
  match a with
  | ⟨0, _⟩ => show win0_7.index t (0 : Fin 2) * 256 + 1 * (y 0).val = win0_13.index t (1 : Fin 3) * 256 + (y 0).val; omega
  | ⟨1, _⟩ => show win0_7.index t (1 : Fin 2) * 1024 + 1 * (y 1).val = (y 1).val; omega

theorem wts8 (c : Dev nD) (t : Fin cfg0.N) :
    iblk (F := Ideal) m c 8 t = (m ((c : Thread nD τ).loc main_arg9) : S1024x1024.Idx → EReal) := by
  have f := wts_facts t
  have e : (V m c main_v0 : S1024x1024.Idx → EReal) = m ((c : Thread nD τ).loc main_arg9) := by
    dsimp only [V, hostOps0]; after_results; rfl
  funext y
  show V m c main_v0 (((cfg0.win 8).blk t).view.emb y) = _
  rw [e]
  refine congrArg _ (funext fun a => Fin.ext ?_)
  match a with
  | ⟨0, _⟩ => show win0_8.index t (0 : Fin 2) * 1024 + 1 * (y 0).val = (y 0).val; omega
  | ⟨1, _⟩ => show win0_8.index t (1 : Fin 2) * 1024 + 1 * (y 1).val = (y 1).val; omega

theorem wts9 (c : Dev nD) (t : Fin cfg0.N) :
    iblk (F := Ideal) m c 9 t = (m ((c : Thread nD τ).loc main_arg10) : S1024x1024.Idx → EReal) := by
  have f := wts_facts t
  have e : (V m c main_v1 : S1024x1024.Idx → EReal) = m ((c : Thread nD τ).loc main_arg10) := by
    dsimp only [V, hostOps0]; after_results; rfl
  funext y
  show V m c main_v1 (((cfg0.win 9).blk t).view.emb y) = _
  rw [e]
  refine congrArg _ (funext fun a => Fin.ext ?_)
  match a with
  | ⟨0, _⟩ => show win0_9.index t (0 : Fin 2) * 1024 + 1 * (y 0).val = (y 0).val; omega
  | ⟨1, _⟩ => show win0_9.index t (1 : Fin 2) * 1024 + 1 * (y 1).val = (y 1).val; omega

theorem wts10 (c : Dev nD) (t : Fin cfg0.N) :
    iblk (F := Ideal) m c 10 t = (m ((c : Thread nD τ).loc main_arg11) : S1024x1024.Idx → EReal) := by
  have f := wts_facts t
  have e : (V m c main_v2 : S1024x1024.Idx → EReal) = m ((c : Thread nD τ).loc main_arg11) := by
    dsimp only [V, hostOps0]; after_results; rfl
  funext y
  show V m c main_v2 (((cfg0.win 10).blk t).view.emb y) = _
  rw [e]
  refine congrArg _ (funext fun a => Fin.ext ?_)
  match a with
  | ⟨0, _⟩ => show win0_10.index t (0 : Fin 2) * 1024 + 1 * (y 0).val = (y 0).val; omega
  | ⟨1, _⟩ => show win0_10.index t (1 : Fin 2) * 1024 + 1 * (y 1).val = (y 1).val; omega

theorem wts11 (c : Dev nD) (t : Fin cfg0.N) :
    iblk (F := Ideal) m c 11 t = (m ((c : Thread nD τ).loc main_arg12) : S1024x1024.Idx → EReal) := by
  have f := wts_facts t
  have e : (V m c main_v3 : S1024x1024.Idx → EReal) = m ((c : Thread nD τ).loc main_arg12) := by
    dsimp only [V, hostOps0]; after_results; rfl
  funext y
  show V m c main_v3 (((cfg0.win 11).blk t).view.emb y) = _
  rw [e]
  refine congrArg _ (funext fun a => Fin.ext ?_)
  match a with
  | ⟨0, _⟩ => show win0_11.index t (0 : Fin 2) * 1024 + 1 * (y 0).val = (y 0).val; omega
  | ⟨1, _⟩ => show win0_11.index t (1 : Fin 2) * 1024 + 1 * (y 1).val = (y 1).val; omega

theorem wts12 (c : Dev nD) (t : Fin cfg0.N) :
    iblk (F := Ideal) m c 12 t = (m ((c : Thread nD τ).loc main_arg13) : S1024x1024.Idx → EReal) := by
  have f := wts_facts t
  have e : (V m c main_v4 : S1024x1024.Idx → EReal) = m ((c : Thread nD τ).loc main_arg13) := by
    dsimp only [V, hostOps0]; after_results; rfl
  funext y
  show V m c main_v4 (((cfg0.win 12).blk t).view.emb y) = _
  rw [e]
  refine congrArg _ (funext fun a => Fin.ext ?_)
  match a with
  | ⟨0, _⟩ => show win0_12.index t (0 : Fin 2) * 1024 + 1 * (y 0).val = (y 0).val; omega
  | ⟨1, _⟩ => show win0_12.index t (1 : Fin 2) * 1024 + 1 * (y 1).val = (y 1).val; omega

/-- The layer's step of core `c`'s arguments as launched. -/
abbrev result (c : Dev nD) : S4x8192x1024.Idx → EReal :=
  layer (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- An index of point t's output block, as an index of the array: the same plane and neuron, row 256·(band) + b. -/
theorem out_emb (t : Fin cfg0.N) (hq : win0_13.index t (1 : Fin 3) < 32) (y : S4x256x1024.Idx) :
    ((cfg0.win 13).blk t).view.emb y = bandPlane (win0_13.index t (1 : Fin 3)) hq y := by
  have f := out_facts t
  refine funext fun a => Fin.ext ?_
  match a with
  | ⟨0, _⟩ => show win0_13.index t (0 : Fin 3) * 4 + 1 * (y 0).val = (y 0).val; omega
  | ⟨1, _⟩ => show win0_13.index t (1 : Fin 3) * 256 + 1 * (y 1).val = win0_13.index t (1 : Fin 3) * 256 + (y 1).val; omega
  | ⟨2, _⟩ => show win0_13.index t (2 : Fin 3) * 1024 + 1 * (y 2).val = (y 2).val; omega

/-- What point t writes back is block t of the layer of the arguments. -/
theorem flushed_eq (c : Dev nD) (t : Fin cfg0.N) :
    (dats m 0 c).flushed 13 t = ((cfg0.win 13).blk t).view.read (Elt Ideal) (result m c) := by
  have hq : win0_13.index t (1 : Fin 3) < 32 := (out_facts t).2.1
  rw [Value.flushed13]
  funext y
  show out0_13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) y
    = result m c (((cfg0.win 13).blk t).view.emb y)
  rw [block_eq_layer, rows0 m c t hq, rows1 m c t hq, rows2 m c t hq, rows3 m c t hq, rows4 m c t hq, rows5 m c t hq,
    rows6 m c t hq, rows7 m c t hq, wts8, wts9, wts10, wts11, wts12, out_emb t hq y]
  exact layer_rows (win0_13.index t (1 : Fin 3)) hq _ _ _ _ _ _ _ _ _ _ _ _ _ y

/-- An index of the array is in point `t`'s block iff each coordinate is in the block's range on its axis. -/
theorem mem_blk (t : Fin cfg0.N) (i : S4x8192x1024.Idx) :
    i ∈ ((cfg0.win 13).blk t).view.set ↔ ∀ a : Fin 3, win0_13.index t a * S4x256x1024.size a ≤ (i a).val ∧ (i a).val < win0_13.index t a * S4x256x1024.size a + S4x256x1024.size a := by
  show i ∈ ((View.whole main_v5).slice (win0_13.rect t)).set ↔ _
  rw [View.set_slice_whole, Rect.mem_set_unit]
  exact Iff.rfl

/-- Every index of the array is in the block of the point whose band holds its row. -/
theorem cover (i : S4x8192x1024.Idx) :
    ∃ t : Fin cfg0.N, (cfg0.win 13).flush t = true ∧ i ∈ ((cfg0.win 13).blk t).view.set := by
  have h0 : (i 0).val < 4 := (i 0).isLt
  have h1 : (i 1).val < 8192 := (i 1).isLt
  have h2 : (i 2).val < 1024 := (i 2).isLt
  obtain ⟨t, ht⟩ := band_onto ⟨(i 1).val / 256, by omega⟩
  have q0 : win0_13.index t (0 : Fin 3) = 0 := congrFun ht 0
  have q1 : win0_13.index t (1 : Fin 3) = (i 1).val / 256 := congrFun ht 1
  have q2 : win0_13.index t (2 : Fin 3) = 0 := congrFun ht 2
  refine ⟨t, flush0_13 t, ?_⟩
  rw [mem_blk]
  intro a
  match a with
  | ⟨0, _⟩ => show win0_13.index t (0 : Fin 3) * 4 ≤ (i 0).val ∧ (i 0).val < win0_13.index t (0 : Fin 3) * 4 + 4; omega
  | ⟨1, _⟩ => show win0_13.index t (1 : Fin 3) * 256 ≤ (i 1).val ∧ (i 1).val < win0_13.index t (1 : Fin 3) * 256 + 256; omega
  | ⟨2, _⟩ => show win0_13.index t (2 : Fin 3) * 1024 ≤ (i 2).val ∧ (i 2).val < win0_13.index t (2 : Fin 3) * 1024 + 1024; omega

/-- The result array after the run is the layer of the arguments. -/
theorem final (c : Dev nD) : (dats m 0 c).arrAt 13 cfg0.N = result m c :=
  (dats m 0 c).arrAt_eq_of_cover 13 (result m c) (fun t _ => flushed_eq m c t) cover

/-- The idealized kernel's run: the result array at the layer of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Blocks

end
-- ==== Proof.LibStack.lean ====
/-
  Four planes joined along a new leading axis, read at an index.

  For any element type and any extents R and C: four arrays of shape [1, R, C] concatenated along axis 0 into an array
  of shape [4, R, C] read, at (g, b, n), array g at (0, b, n).
-/
import Idealize.ShloMosaic.Lib.Pipeline.Value

namespace Cert.LibStack

open Idealize.ShloMosaic

variable {α : Type} {R C : Nat}

/-- The index (0, b, n) of one plane, for the (b, n) of an index (g, b, n) of the joined array. -/
abbrev inPlane (i : (⟨3, ![4, R, C]⟩ : Shape).Idx) : (⟨3, ![1, R, C]⟩ : Shape).Idx := fun a => match a with
  | ⟨0, _⟩ => ⟨0, Nat.one_pos⟩
  | ⟨1, _⟩ => ⟨(i 1).val, (i 1).isLt⟩
  | ⟨2, _⟩ => ⟨(i 2).val, (i 2).isLt⟩

/-- Off the joined axis, `inPlane i` has the coordinates of `i`. -/
theorem inPlane_off (i : (⟨3, ![4, R, C]⟩ : Shape).Idx)
    (hr : (⟨3, ![1, R, C]⟩ : Shape).rank = (⟨3, ![4, R, C]⟩ : Shape).rank) :
    ∀ b : Fin (⟨3, ![1, R, C]⟩ : Shape).rank, b.cast hr ≠ (0 : Fin (⟨3, ![4, R, C]⟩ : Shape).rank) →
      (inPlane i b).val = (i (b.cast hr)).val := by
  intro b hb
  match b with
  | ⟨0, _⟩ => exact absurd rfl hb
  | ⟨1, _⟩ => rfl
  | ⟨2, _⟩ => rfl

/-- Four [1, R, C] planes joined along axis 0, at (g, b, n): plane g at (0, b, n). -/
theorem stack4_apply (p0 p1 p2 p3 : (⟨3, ![1, R, C]⟩ : Shape).Idx → α)
    (h : Shape.Concatenates (([⟨⟨3, ![1, R, C]⟩, p0⟩, ⟨⟨3, ![1, R, C]⟩, p1⟩, ⟨⟨3, ![1, R, C]⟩, p2⟩, ⟨⟨3, ![1, R, C]⟩, p3⟩] :
      List ((s : Shape) × (s.Idx → α))).map (·.1)) ⟨3, ![4, R, C]⟩ 0)
    (i : (⟨3, ![4, R, C]⟩ : Shape).Idx) :
    concatenate ⟨3, ![4, R, C]⟩ 0 [⟨⟨3, ![1, R, C]⟩, p0⟩, ⟨⟨3, ![1, R, C]⟩, p1⟩, ⟨⟨3, ![1, R, C]⟩, p2⟩, ⟨⟨3, ![1, R, C]⟩, p3⟩] h i
      = if (i 0).val = 0 then p0 (inPlane i) else if (i 0).val = 1 then p1 (inPlane i)
        else if (i 0).val = 2 then p2 (inPlane i) else p3 (inPlane i) := by
  have h4 : (i 0).val < 4 := (i 0).isLt
  by_cases c0 : (i 0).val = 0
  · rw [if_pos c0]
    exact concatenate_apply_piece (0 : Fin 3) _ h i 0 (by simp) ⟨3, ![1, R, C]⟩ p0 rfl rfl 0 rfl (inPlane i)
      (inPlane_off i rfl) (by show 0 + 0 = (i 0).val; omega)
  · rw [if_neg c0]
    by_cases c1 : (i 0).val = 1
    · rw [if_pos c1]
      exact concatenate_apply_piece (0 : Fin 3) _ h i 1 (by simp) ⟨3, ![1, R, C]⟩ p1 rfl rfl 1 rfl (inPlane i)
        (inPlane_off i rfl) (by show 1 + 0 = (i 0).val; omega)
    · rw [if_neg c1]
      by_cases c2 : (i 0).val = 2
      · rw [if_pos c2]
        exact concatenate_apply_piece (0 : Fin 3) _ h i 2 (by simp) ⟨3, ![1, R, C]⟩ p2 rfl rfl 2 rfl (inPlane i)
          (inPlane_off i rfl) (by show 2 + 0 = (i 0).val; omega)
      · rw [if_neg c2]
        exact concatenate_apply_piece (0 : Fin 3) _ h i 3 (by simp) ⟨3, ![1, R, C]⟩ p3 rfl rfl 3 rfl (inPlane i)
          (inPlane_off i rfl) (by show 3 + 0 = (i 0).val; omega)

end Cert.LibStack
-- ==== Proof.RefLayer.lean ====
/-
  The reference's result is the layer's step (`Cert.Lif.layer`) of its arguments.

  The reference computes each projection as a product with the transposed weight matrix, contracting the rows'
  second axis with the transpose's first: entry (b, n) is the sum over k of `x[b, k] · Wᵀ[k, n] = x[b, k] · W[n, k]`.
  Each plane is then the spike indicator of the relaxed voltage, entry by entry, and the four planes, each given a
  leading unit axis, are joined along it: index (g, b, n) of the result reads plane g at (b, n).
-/
import proofs.«147066_j36344013258758_2_alg».proof.Proof.Gen.ReferenceIdeal.Read
import proofs.«147066_j36344013258758_2_alg».proof.Proof.Spec
import proofs.«147066_j36344013258758_2_alg».proof.Proof.LibStack

noncomputable section

open scoped BigOperators

namespace Cert.ReferenceIdeal.Layer

open Cert.ReferenceIdeal Cert.ReferenceIdeal.Read Idealize.ShloMosaic Cert.Lif

/-! ## The five projections -/

/-- The previous sensory spikes through the first matrix. -/
theorem v1_proj (x1 : (⟨S8192x1024, .f32⟩ : BufTy).Contents (Elt Ideal)) (x9 : (⟨S1024x1024, .f32⟩ : BufTy).Contents (Elt Ideal)) (j : S8192x1024.Idx) :
    val_main_v1 (F := Ideal) x1 x9 j = proj x1 x9 j := by
  rw [val_main_v1_apply]
  unfold proj
  refine Finset.sum_congr rfl fun k _ => ?_
  rw [val_main_v0_apply]
  have el : lidx_main_v1 j k = rowAt j k := funext fun a => match a with | ⟨0, _⟩ => rfl | ⟨1, _⟩ => rfl
  have er : idx_main_v0 (ridx_main_v1 j k) = colAt j k := funext fun a => match a with | ⟨0, _⟩ => rfl | ⟨1, _⟩ => rfl
  rw [el, er]

/-- The previous second-hidden spikes through the third matrix. -/
theorem v3_proj (x3 : (⟨S8192x1024, .f32⟩ : BufTy).Contents (Elt Ideal)) (x11 : (⟨S1024x1024, .f32⟩ : BufTy).Contents (Elt Ideal)) (j : S8192x1024.Idx) :
    val_main_v3 (F := Ideal) x3 x11 j = proj x3 x11 j := by
  rw [val_main_v3_apply]
  unfold proj
  refine Finset.sum_congr rfl fun k _ => ?_
  rw [val_main_v2_apply]
  have el : lidx_main_v3 j k = rowAt j k := funext fun a => match a with | ⟨0, _⟩ => rfl | ⟨1, _⟩ => rfl
  have er : idx_main_v2 (ridx_main_v3 j k) = colAt j k := funext fun a => match a with | ⟨0, _⟩ => rfl | ⟨1, _⟩ => rfl
  rw [el, er]

/-- The previous first-hidden spikes through the fifth matrix. -/
theorem v6_proj (x2 : (⟨S8192x1024, .f32⟩ : BufTy).Contents (Elt Ideal)) (x13 : (⟨S1024x1024, .f32⟩ : BufTy).Contents (Elt Ideal)) (j : S8192x1024.Idx) :
    val_main_v6 (F := Ideal) x2 x13 j = proj x2 x13 j := by
  rw [val_main_v6_apply]
  unfold proj
  refine Finset.sum_congr rfl fun k _ => ?_
  rw [val_main_v5_apply]
  have el : lidx_main_v6 j k = rowAt j k := funext fun a => match a with | ⟨0, _⟩ => rfl | ⟨1, _⟩ => rfl
  have er : idx_main_v5 (ridx_main_v6 j k) = colAt j k := funext fun a => match a with | ⟨0, _⟩ => rfl | ⟨1, _⟩ => rfl
  rw [el, er]

/-- The previous first-hidden spikes through the second matrix. -/
theorem v9_proj (x2 : (⟨S8192x1024, .f32⟩ : BufTy).Contents (Elt Ideal)) (x10 : (⟨S1024x1024, .f32⟩ : BufTy).Contents (Elt Ideal)) (j : S8192x1024.Idx) :
    val_main_v9 (F := Ideal) x2 x10 j = proj x2 x10 j := by
  rw [val_main_v9_apply]
  unfold proj
  refine Finset.sum_congr rfl fun k _ => ?_
  rw [val_main_v8_apply]
  have el : lidx_main_v9 j k = rowAt j k := funext fun a => match a with | ⟨0, _⟩ => rfl | ⟨1, _⟩ => rfl
  have er : idx_main_v8 (ridx_main_v9 j k) = colAt j k := funext fun a => match a with | ⟨0, _⟩ => rfl | ⟨1, _⟩ => rfl
  rw [el, er]

/-- The previous second-hidden spikes through the fourth matrix. -/
theorem v11_proj (x3 : (⟨S8192x1024, .f32⟩ : BufTy).Contents (Elt Ideal)) (x12 : (⟨S1024x1024, .f32⟩ : BufTy).Contents (Elt Ideal)) (j : S8192x1024.Idx) :
    val_main_v11 (F := Ideal) x3 x12 j = proj x3 x12 j := by
  rw [val_main_v11_apply]
  unfold proj
  refine Finset.sum_congr rfl fun k _ => ?_
  rw [val_main_v10_apply]
  have el : lidx_main_v11 j k = rowAt j k := funext fun a => match a with | ⟨0, _⟩ => rfl | ⟨1, _⟩ => rfl
  have er : idx_main_v10 (ridx_main_v11 j k) = colAt j k := funext fun a => match a with | ⟨0, _⟩ => rfl | ⟨1, _⟩ => rfl
  rw [el, er]

/-! ## The four planes -/

/-- The sensory plane. -/
theorem plane_sensory (x0 x5 : (⟨S8192x1024, .f32⟩ : BufTy).Contents (Elt Ideal)) (j : S8192x1024.Idx) :
    val_main_v18 (F := Ideal) x0 x5 j = sensory x0 x5 j := by
  rw [val_main_v18_apply, val_main_v17_apply, val_main_v15_apply, val_main_v14_apply, val_main_v13_apply,
    val_main_cst_apply, val_main_v12_apply, val_main_v16_apply, val_main_cst_0_apply]
  rfl

/-- The first hidden plane. -/
theorem plane_hidden1 (x1 x2 x3 x6 : (⟨S8192x1024, .f32⟩ : BufTy).Contents (Elt Ideal))
    (x9 x11 x13 : (⟨S1024x1024, .f32⟩ : BufTy).Contents (Elt Ideal)) (j : S8192x1024.Idx) :
    val_main_v25 (F := Ideal) x1 x2 x3 x6 x9 x11 x13 j = hidden1 x1 x2 x3 x6 x9 x11 x13 j := by
  rw [val_main_v25_apply, val_main_v24_apply, val_main_v22_apply, val_main_v21_apply, val_main_v20_apply,
    val_main_cst_1_apply, val_main_v19_apply, val_main_v7_apply, val_main_v4_apply, v1_proj, v3_proj, v6_proj,
    val_main_v23_apply, val_main_cst_2_apply]
  rfl

/-- The second hidden plane. -/
theorem plane_hidden2 (x2 x7 : (⟨S8192x1024, .f32⟩ : BufTy).Contents (Elt Ideal))
    (x10 : (⟨S1024x1024, .f32⟩ : BufTy).Contents (Elt Ideal)) (j : S8192x1024.Idx) :
    val_main_v32 (F := Ideal) x2 x7 x10 j = hidden2 x2 x7 x10 j := by
  rw [val_main_v32_apply, val_main_v31_apply, val_main_v29_apply, val_main_v28_apply, val_main_v27_apply,
    val_main_cst_3_apply, val_main_v26_apply, v9_proj, val_main_v30_apply, val_main_cst_4_apply]
  rfl

/-- The motor plane. -/
theorem plane_motor (x3 x8 : (⟨S8192x1024, .f32⟩ : BufTy).Contents (Elt Ideal))
    (x12 : (⟨S1024x1024, .f32⟩ : BufTy).Contents (Elt Ideal)) (j : S8192x1024.Idx) :
    val_main_v39 (F := Ideal) x3 x8 x12 j = motor x3 x8 x12 j := by
  rw [val_main_v39_apply, val_main_v38_apply, val_main_v36_apply, val_main_v35_apply, val_main_v34_apply,
    val_main_cst_5_apply, val_main_v33_apply, v11_proj, val_main_v37_apply, val_main_cst_6_apply]
  rfl

/-! ## The four planes joined -/

/-- The reference's result is the layer's step of its arguments. -/
theorem result_eq_layer (x0 x1 x2 x3 x5 x6 x7 x8 : (⟨S8192x1024, .f32⟩ : BufTy).Contents (Elt Ideal))
    (x9 x10 x11 x12 x13 : (⟨S1024x1024, .f32⟩ : BufTy).Contents (Elt Ideal)) :
    val_main_v44 (F := Ideal) x0 x1 x2 x3 x5 x6 x7 x8 x9 x10 x11 x12 x13
      = layer x0 x1 x2 x3 x5 x6 x7 x8 x9 x10 x11 x12 x13 := by
  funext i
  have e0 : idx_main_v40 (Cert.LibStack.inPlane i) = within i :=
    funext fun a => match a with | ⟨0, _⟩ => rfl | ⟨1, _⟩ => rfl
  have e1 : idx_main_v41 (Cert.LibStack.inPlane i) = within i :=
    funext fun a => match a with | ⟨0, _⟩ => rfl | ⟨1, _⟩ => rfl
  have e2 : idx_main_v42 (Cert.LibStack.inPlane i) = within i :=
    funext fun a => match a with | ⟨0, _⟩ => rfl | ⟨1, _⟩ => rfl
  have e3 : idx_main_v43 (Cert.LibStack.inPlane i) = within i :=
    funext fun a => match a with | ⟨0, _⟩ => rfl | ⟨1, _⟩ => rfl
  unfold val_main_v44
  refine (Cert.LibStack.stack4_apply _ _ _ _ _ i).trans ?_
  rw [val_main_v40_apply, val_main_v41_apply, val_main_v42_apply, val_main_v43_apply, e0, e1, e2, e3,
    plane_sensory, plane_hidden1, plane_hidden2, plane_motor]
  rfl

end Cert.ReferenceIdeal.Layer

end
-- ==== Proof.lean ====
/-
  The certificate of a leaky integrate-and-fire layer's step: a kernel that works on bands of 256 batch rows against a
  whole-array reference.

  Both programs compute, for four groups of neurons, the spike indicator of the relaxed membrane voltage
  `v + (dt/τ)·(I − v) ≥ 1`, where the sensory current is the external input and each hidden or motor current is a sum of
  projections `x · Wᵀ` of the previous step's spikes (`Cert.Lif.layer`, Proof/Spec.lean). On the extended reals:
  * the kernel narrows the spikes and the weights to bf16 before its matrix products — a change of float format is the
    identity —, contracts the second axis of both operands where the reference multiplies by the transposed matrix — the
    same sum over k of `x[b, k] · W[n, k]` —, and adds the three hidden currents in the reference's order;
  * the kernel widens the comparison bit to 32 bits and converts it as a signed integer where the reference converts
    the bit as an unsigned one — both give 0 or 1;
  * `dt/τ` and the threshold are the same single-precision words in both programs.
  So the two results are one function of the arguments, index by index, and no law used needs the inputs finite: the
  precondition is never opened. The kernel's idealization rewrote no operation, so `preserves` is trivial.

  The modules: Spec (the layer as a function of whole arrays, and that a band of rows of it is the layer of the band),
  Payload (the kernel body's stored planes on one block), Blocks (the kernel's result array from its 32 blocks),
  LibStack (four planes joined along a leading axis, at an index), RefLayer (the reference's result).
-/
import proofs.«147066_j36344013258758_2_alg».proof.Defs
import proofs.«147066_j36344013258758_2_alg».proof.Proof.Gen.Kernel
import proofs.«147066_j36344013258758_2_alg».proof.Proof.Gen.Kernel.Skeleton
import proofs.«147066_j36344013258758_2_alg».proof.Proof.Gen.Kernel.Launch
import proofs.«147066_j36344013258758_2_alg».proof.Proof.Gen.Kernel.Points
import proofs.«147066_j36344013258758_2_alg».proof.Proof.Gen.Kernel.Frame
import proofs.«147066_j36344013258758_2_alg».proof.Proof.Gen.KernelIdeal
import proofs.«147066_j36344013258758_2_alg».proof.Proof.Gen.KernelIdeal.Skeleton
import proofs.«147066_j36344013258758_2_alg».proof.Proof.Gen.KernelIdeal.Launch
import proofs.«147066_j36344013258758_2_alg».proof.Proof.Gen.KernelIdeal.Points
import proofs.«147066_j36344013258758_2_alg».proof.Proof.Gen.KernelIdeal.Frame
import proofs.«147066_j36344013258758_2_alg».proof.Proof.Gen.ReferenceIdeal
import proofs.«147066_j36344013258758_2_alg».proof.Proof.Gen.Pre_finite_inputs
import proofs.«147066_j36344013258758_2_alg».proof.Proof.Gen.KernelIdeal.Value
import proofs.«147066_j36344013258758_2_alg».proof.Proof.Gen.ReferenceIdeal.Run
import proofs.«147066_j36344013258758_2_alg».proof.Proof.Gen.ReferenceIdeal.Read
import proofs.«147066_j36344013258758_2_alg».proof.Proof.Blocks
import proofs.«147066_j36344013258758_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and leaves its arguments as they were (the generated frame). -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree, both programs end with the layer's step of the kernel's arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, -, a5, a6, a7, a8, a9, a10, a11, a12, a13⟩ := hagree c
  rw [Cert.ReferenceIdeal.Read.val_main_v44_eq, Cert.ReferenceIdeal.Layer.result_eq_layer,
    a0, a1, a2, a3, a5, a6, a7, a8, a9, a10, a11, a12, a13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
